-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x384x32x32 : Shape := ⟨4, ![32, 384, 32, 32]⟩
abbrev S384x3x3 : Shape := ⟨3, ![384, 3, 3]⟩
abbrev S_ : Shape := ⟨0, ![]⟩

class Facts : Prop where
  bcast_S_S32x384x32x32 : S_.BroadcastsInDim S32x384x32x32 (![] : Fin 0 → Fin S32x384x32x32.rank)
  reducesTo_S32x384x32x32_S_d0_1_2_3 : S32x384x32x32.ReducesTo [0, 1, 2, 3] S_
  h_S_ : 0 < S_.numel
  bcast_S_S384x3x3 : S_.BroadcastsInDim S384x3x3 (![] : Fin 0 → Fin S384x3x3.rank)
  reducesTo_S384x3x3_S_d0_1_2 : S384x3x3.ReducesTo [0, 1, 2] S_

variable [Facts]

def fn {F : FTy → Type} [FloatOps F] (main_arg0 : FVec F S32x384x32x32 .f32) (main_arg1 : FVec F S384x3x3 .f32) : IVec S_ 1 :=
  let main_v0 : FVec F S32x384x32x32 .f32 := Host.absf main_arg0
  let main_cst : FVec F S_ .f32 := constant S_ .f32 0x7F800000#32
  let main_v1 : FVec F S32x384x32x32 .f32 := broadcastInDim S32x384x32x32 ![] bcast_S_S32x384x32x32 main_cst
  let main_v2 : IVec S32x384x32x32 1 := cmpf .olt main_v0 main_v1
  let main_c : IVec S_ 1 := constantI S_ 1 1#1
  let main_v3 : IVec S_ 1 := (fun x v => Host.reduce IntOp.andi x v reducesTo_S32x384x32x32_S_d0_1_2_3 h_S_) main_v2 main_c
  let main_v4 : FVec F S384x3x3 .f32 := Host.absf main_arg1
  let main_cst_0 : FVec F S_ .f32 := constant S_ .f32 0x7F800000#32
  let main_v5 : FVec F S384x3x3 .f32 := broadcastInDim S384x3x3 ![] bcast_S_S384x3x3 main_cst_0
  let main_v6 : IVec S384x3x3 1 := cmpf .olt main_v4 main_v5
  let main_c_1 : IVec S_ 1 := constantI S_ 1 1#1
  let main_v7 : IVec S_ 1 := (fun x v => Host.reduce IntOp.andi x v reducesTo_S384x3x3_S_d0_1_2 h_S_) main_v6 main_c_1
  let main_v8 : IVec S_ 1 := andi main_v3 main_v7
  main_v8
-- ==== Kernel.lean ====
abbrev S32x384x32x32 : Shape := ⟨4, ![32, 384, 32, 32]⟩
abbrev S384x3x3 : Shape := ⟨3, ![384, 3, 3]⟩
abbrev S32x32x32x384 : Shape := ⟨4, ![32, 32, 32, 384]⟩
abbrev S3x3x384 : Shape := ⟨3, ![3, 3, 384]⟩
abbrev S4x32x32x384 : Shape := ⟨4, ![4, 32, 32, 384]⟩
abbrev S4x34x34x384 : Shape := ⟨4, ![4, 34, 34, 384]⟩
abbrev S1x1x384 : Shape := ⟨3, ![1, 1, 384]⟩
abbrev S384 : Shape := ⟨1, ![384]⟩
abbrev S1x1x1x384 : Shape := ⟨4, ![1, 1, 1, 384]⟩

abbrev nBuf : Space → Nat
  | .hbm => 6
  | .vmem => 6
  | .smem => 0
  | _ => 0

abbrev bufTy : (tb : Table) → Fin (tcTables nBuf tb) → BufTy
  | .hbm, ⟨0, _⟩ => ⟨S32x384x32x32, .f32⟩
  | .hbm, ⟨1, _⟩ => ⟨S384x3x3, .f32⟩
  | .hbm, ⟨2, _⟩ => ⟨S32x32x32x384, .f32⟩
  | .hbm, ⟨3, _⟩ => ⟨S3x3x384, .f32⟩
  | .hbm, ⟨4, _⟩ => ⟨S32x32x32x384, .f32⟩
  | .hbm, ⟨5, _⟩ => ⟨S32x384x32x32, .f32⟩
  | .local _ .vmem, ⟨0, _⟩ => ⟨S4x32x32x384, .f32⟩
  | .local _ .vmem, ⟨1, _⟩ => ⟨S4x32x32x384, .f32⟩
  | .local _ .vmem, ⟨2, _⟩ => ⟨S3x3x384, .f32⟩
  | .local _ .vmem, ⟨3, _⟩ => ⟨S4x32x32x384, .f32⟩
  | .local _ .vmem, ⟨4, _⟩ => ⟨S4x32x32x384, .f32⟩
  | .local _ .vmem, ⟨5, _⟩ => ⟨S4x34x34x384, .f32⟩
  | _, _ => ⟨S32x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x32x32x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S32x384x32x32_S32x32x32x384_0_2_3_1 : S32x384x32x32.Transposes [0, 2, 3, 1] S32x32x32x384
  transposes_S384x3x3_S3x3x384_1_2_0 : S384x3x3.Transposes [1, 2, 0] S3x3x384
  inb_S4x34x34x384_S4x34x34x384_0_0_0_0 : ∀ a, (![0, 0, 0, 0] : Fin 4 → Nat) a + S4x34x34x384.size a ≤ S4x34x34x384.size a
  h_S4x34x34x384 : 0 < S4x34x34x384.numel
  shapeCasts_S4x34x34x384_S4x34x34x384 : S4x34x34x384.ShapeCasts S4x34x34x384
  inb_S4x32x32x384_S4x32x32x384_0_0_0_0 : ∀ a, (![0, 0, 0, 0] : Fin 4 → Nat) a + S4x32x32x384.size a ≤ S4x32x32x384.size a
  h_S4x32x32x384 : 0 < S4x32x32x384.numel
  shapeCasts_S4x32x32x384_S4x32x32x384 : S4x32x32x384.ShapeCasts S4x32x32x384
  inb_S4x34x34x384_S4x32x32x384_0_1_1_0 : ∀ a, (![0, 1, 1, 0] : Fin 4 → Nat) a + S4x32x32x384.size a ≤ S4x34x34x384.size a
  inb_S3x3x384_S3x3x384_0_0_0 : ∀ a, (![0, 0, 0] : Fin 3 → Nat) a + S3x3x384.size a ≤ S3x3x384.size a
  h_S3x3x384 : 0 < S3x3x384.numel
  shapeCasts_S3x3x384_S3x3x384 : S3x3x384.ShapeCasts S3x3x384
  inb_S4x34x34x384_S4x32x32x384_0_0_0_0 : ∀ a, (![0, 0, 0, 0] : Fin 4 → Nat) a + S4x32x32x384.size a ≤ S4x34x34x384.size a
  slices_S3x3x384_o0_0_0_S1x1x384 : S3x3x384.Slices ![0, 0, 0] S1x1x384
  shapeCasts_S1x1x384_S384 : S1x1x384.ShapeCasts S384
  shapeCasts_S384_S1x1x1x384 : S384.ShapeCasts S1x1x1x384
  broadcasts_S1x1x1x384_S4x32x32x384 : S1x1x1x384.Broadcasts S4x32x32x384
  inb_S4x34x34x384_S4x32x32x384_0_0_1_0 : ∀ a, (![0, 0, 1, 0] : Fin 4 → Nat) a + S4x32x32x384.size a ≤ S4x34x34x384.size a
  slices_S3x3x384_o0_1_0_S1x1x384 : S3x3x384.Slices ![0, 1, 0] S1x1x384
  inb_S4x34x34x384_S4x32x32x384_0_0_2_0 : ∀ a, (![0, 0, 2, 0] : Fin 4 → Nat) a + S4x32x32x384.size a ≤ S4x34x34x384.size a
  slices_S3x3x384_o0_2_0_S1x1x384 : S3x3x384.Slices ![0, 2, 0] S1x1x384
  inb_S4x34x34x384_S4x32x32x384_0_1_0_0 : ∀ a, (![0, 1, 0, 0] : Fin 4 → Nat) a + S4x32x32x384.size a ≤ S4x34x34x384.size a
  slices_S3x3x384_o1_0_0_S1x1x384 : S3x3x384.Slices ![1, 0, 0] S1x1x384
  slices_S3x3x384_o1_1_0_S1x1x384 : S3x3x384.Slices ![1, 1, 0] S1x1x384
  inb_S4x34x34x384_S4x32x32x384_0_1_2_0 : ∀ a, (![0, 1, 2, 0] : Fin 4 → Nat) a + S4x32x32x384.size a ≤ S4x34x34x384.size a
  slices_S3x3x384_o1_2_0_S1x1x384 : S3x3x384.Slices ![1, 2, 0] S1x1x384
  inb_S4x34x34x384_S4x32x32x384_0_2_0_0 : ∀ a, (![0, 2, 0, 0] : Fin 4 → Nat) a + S4x32x32x384.size a ≤ S4x34x34x384.size a
  slices_S3x3x384_o2_0_0_S1x1x384 : S3x3x384.Slices ![2, 0, 0] S1x1x384
  inb_S4x34x34x384_S4x32x32x384_0_2_1_0 : ∀ a, (![0, 2, 1, 0] : Fin 4 → Nat) a + S4x32x32x384.size a ≤ S4x34x34x384.size a
  slices_S3x3x384_o2_1_0_S1x1x384 : S3x3x384.Slices ![2, 1, 0] S1x1x384
  inb_S4x34x34x384_S4x32x32x384_0_2_2_0 : ∀ a, (![0, 2, 2, 0] : Fin 4 → Nat) a + S4x32x32x384.size a ≤ S4x34x34x384.size a
  slices_S3x3x384_o2_2_0_S1x1x384 : S3x3x384.Slices ![2, 2, 0] S1x1x384
  transposes_S32x32x32x384_S32x384x32x32_0_3_1_2 : S32x32x32x384.Transposes [0, 3, 1, 2] S32x384x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x32x384.size a ≤ S32x32x32x384.size a
  hwx0_0 : ∀ i : grid0.Coords, EltTy.bits .f32 = 32 ∨ (Rect.block (s := S32x32x32x384) S4x32x32x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x384.size a ≤ S3x3x384.size a
  hwx0_1 : ∀ i : grid0.Coords, EltTy.bits .f32 = 32 ∨ (Rect.block (s := S3x3x384) S3x3x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x32x32x384.size a ≤ S32x32x32x384.size a
  hwx0_2 : ∀ i : grid0.Coords, EltTy.bits .f32 = 32 ∨ (Rect.block (s := S32x32x32x384) S4x32x32x384.size (cc0_transform_2 i) (hinb0_2 i)).WholeWords (EltTy.packing .f32)

variable [Facts₀]

abbrev win0_0 : Pipeline.Window sig grid0 :=
  Pipeline.Window.ofSpec (Memref.whole main_v0) S4x32x32x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x3x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x32x32x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x384x32x32 : Shape := ⟨4, ![32, 384, 32, 32]⟩
abbrev S384x3x3 : Shape := ⟨3, ![384, 3, 3]⟩
abbrev S_ : Shape := ⟨0, ![]⟩
abbrev S32x384x34x34 : Shape := ⟨4, ![32, 384, 34, 34]⟩
abbrev S384x1x1 : Shape := ⟨3, ![384, 1, 1]⟩
abbrev S384 : Shape := ⟨1, ![384]⟩
abbrev S1x384x1x1 : Shape := ⟨4, ![1, 384, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S32x384x32x32, .f32⟩
  | .hbm, ⟨1, _⟩ => ⟨S384x3x3, .f32⟩
  | .hbm, ⟨2, _⟩ => ⟨S_, .i32⟩
  | .hbm, ⟨3, _⟩ => ⟨S_, .f32⟩
  | .hbm, ⟨4, _⟩ => ⟨S32x384x34x34, .f32⟩
  | .hbm, ⟨5, _⟩ => ⟨S_, .f32⟩
  | .hbm, ⟨6, _⟩ => ⟨S32x384x32x32, .f32⟩
  | .hbm, ⟨7, _⟩ => ⟨S32x384x32x32, .f32⟩
  | .hbm, ⟨8, _⟩ => ⟨S384x1x1, .f32⟩
  | .hbm, ⟨9, _⟩ => ⟨S384, .f32⟩
  | .hbm, ⟨10, _⟩ => ⟨S1x384x1x1, .f32⟩
  | .hbm, ⟨11, _⟩ => ⟨S32x384x32x32, .f32⟩
  | .hbm, ⟨12, _⟩ => ⟨S32x384x32x32, .f32⟩
  | .hbm, ⟨13, _⟩ => ⟨S32x384x32x32, .f32⟩
  | .hbm, ⟨14, _⟩ => ⟨S32x384x32x32, .f32⟩
  | .hbm, ⟨15, _⟩ => ⟨S32x384x32x32, .f32⟩
  | .hbm, ⟨16, _⟩ => ⟨S384x1x1, .f32⟩
  | .hbm, ⟨17, _⟩ => ⟨S384, .f32⟩
  | .hbm, ⟨18, _⟩ => ⟨S1x384x1x1, .f32⟩
  | .hbm, ⟨19, _⟩ => ⟨S32x384x32x32, .f32⟩
  | .hbm, ⟨20, _⟩ => ⟨S32x384x32x32, .f32⟩
  | .hbm, ⟨21, _⟩ => ⟨S32x384x32x32, .f32⟩
  | .hbm, ⟨22, _⟩ => ⟨S32x384x32x32, .f32⟩
  | .hbm, ⟨23, _⟩ => ⟨S32x384x32x32, .f32⟩
  | .hbm, ⟨24, _⟩ => ⟨S384x1x1, .f32⟩
  | .hbm, ⟨25, _⟩ => ⟨S384, .f32⟩
  | .hbm, ⟨26, _⟩ => ⟨S1x384x1x1, .f32⟩
  | .hbm, ⟨27, _⟩ => ⟨S32x384x32x32, .f32⟩
  | .hbm, ⟨28, _⟩ => ⟨S32x384x32x32, .f32⟩
  | .hbm, ⟨29, _⟩ => ⟨S32x384x32x32, .f32⟩
  | .hbm, ⟨30, _⟩ => ⟨S32x384x32x32, .f32⟩
  | .hbm, ⟨31, _⟩ => ⟨S32x384x32x32, .f32⟩
  | .hbm, ⟨32, _⟩ => ⟨S384x1x1, .f32⟩
  | .hbm, ⟨33, _⟩ => ⟨S384, .f32⟩
  | .hbm, ⟨34, _⟩ => ⟨S1x384x1x1, .f32⟩
  | .hbm, ⟨35, _⟩ => ⟨S32x384x32x32, .f32⟩
  | .hbm, ⟨36, _⟩ => ⟨S32x384x32x32, .f32⟩
  | .hbm, ⟨37, _⟩ => ⟨S32x384x32x32, .f32⟩
  | .hbm, ⟨38, _⟩ => ⟨S32x384x32x32, .f32⟩
  | .hbm, ⟨39, _⟩ => ⟨S32x384x32x32, .f32⟩
  | .hbm, ⟨40, _⟩ => ⟨S384x1x1, .f32⟩
  | .hbm, ⟨41, _⟩ => ⟨S384, .f32⟩
  | .hbm, ⟨42, _⟩ => ⟨S1x384x1x1, .f32⟩
  | .hbm, ⟨43, _⟩ => ⟨S32x384x32x32, .f32⟩
  | .hbm, ⟨44, _⟩ => ⟨S32x384x32x32, .f32⟩
  | .hbm, ⟨45, _⟩ => ⟨S32x384x32x32, .f32⟩
  | .hbm, ⟨46, _⟩ => ⟨S32x384x32x32, .f32⟩
  | .hbm, ⟨47, _⟩ => ⟨S32x384x32x32, .f32⟩
  | .hbm, ⟨48, _⟩ => ⟨S384x1x1, .f32⟩
  | .hbm, ⟨49, _⟩ => ⟨S384, .f32⟩
  | .hbm, ⟨50, _⟩ => ⟨S1x384x1x1, .f32⟩
  | .hbm, ⟨51, _⟩ => ⟨S32x384x32x32, .f32⟩
  | .hbm, ⟨52, _⟩ => ⟨S32x384x32x32, .f32⟩
  | .hbm, ⟨53, _⟩ => ⟨S32x384x32x32, .f32⟩
  | .hbm, ⟨54, _⟩ => ⟨S32x384x32x32, .f32⟩
  | .hbm, ⟨55, _⟩ => ⟨S32x384x32x32, .f32⟩
  | .hbm, ⟨56, _⟩ => ⟨S384x1x1, .f32⟩
  | .hbm, ⟨57, _⟩ => ⟨S384, .f32⟩
  | .hbm, ⟨58, _⟩ => ⟨S1x384x1x1, .f32⟩
  | .hbm, ⟨59, _⟩ => ⟨S32x384x32x32, .f32⟩
  | .hbm, ⟨60, _⟩ => ⟨S32x384x32x32, .f32⟩
  | .hbm, ⟨61, _⟩ => ⟨S32x384x32x32, .f32⟩
  | .hbm, ⟨62, _⟩ => ⟨S32x384x32x32, .f32⟩
  | .hbm, ⟨63, _⟩ => ⟨S32x384x32x32, .f32⟩
  | .hbm, ⟨64, _⟩ => ⟨S384x1x1, .f32⟩
  | .hbm, ⟨65, _⟩ => ⟨S384, .f32⟩
  | .hbm, ⟨66, _⟩ => ⟨S1x384x1x1, .f32⟩
  | .hbm, ⟨67, _⟩ => ⟨S32x384x32x32, .f32⟩
  | .hbm, ⟨68, _⟩ => ⟨S32x384x32x32, .f32⟩
  | .hbm, ⟨69, _⟩ => ⟨S32x384x32x32, .f32⟩
  | .hbm, ⟨70, _⟩ => ⟨S32x384x32x32, .f32⟩
  | .hbm, ⟨71, _⟩ => ⟨S32x384x32x32, .f32⟩
  | .hbm, ⟨72, _⟩ => ⟨S384x1x1, .f32⟩
  | .hbm, ⟨73, _⟩ => ⟨S384, .f32⟩
  | .hbm, ⟨74, _⟩ => ⟨S1x384x1x1, .f32⟩
  | .hbm, ⟨75, _⟩ => ⟨S32x384x32x32, .f32⟩
  | .hbm, ⟨76, _⟩ => ⟨S32x384x32x32, .f32⟩
  | .hbm, ⟨77, _⟩ => ⟨S32x384x32x32, .f32⟩
  | .hbm, ⟨78, _⟩ => ⟨S32x384x32x32, .f32⟩
  | _, _ => ⟨S32x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩

abbrev nD : Nat := 1
abbrev τ : Topo := Topo.v7x

variable {F : FTy → Type} [FloatOps F]

class Facts₀ : Prop where
  pads_S32x384x32x32_S32x384x34x34_000_000_110_110 : S32x384x32x32.Pads (![0, 0, 1, 1] : Fin 4 → Nat) ![0, 0, 1, 1] ![0, 0, 0, 0] S32x384x34x34
  h_S_ : 0 < S_.numel
  bcast_S_S32x384x32x32 : S_.BroadcastsInDim S32x384x32x32 (![] : Fin 0 → Fin S32x384x32x32.rank)
  slices_S32x384x34x34_S32x384x32x32_0_0_0_0 : S32x384x34x34.Slices ![0, 0, 0, 0] S32x384x32x32
  slices_S384x3x3_S384x1x1_0_0_0 : S384x3x3.Slices ![0, 0, 0] S384x1x1
  shapeCasts_S384x1x1_S384 : S384x1x1.ShapeCasts S384
  bcast_S384_S1x384x1x1_1 : S384.BroadcastsInDim S1x384x1x1 (![1] : Fin 1 → Fin S1x384x1x1.rank)
  bcast_S1x384x1x1_S32x384x32x32_0_1_2_3 : S1x384x1x1.BroadcastsInDim S32x384x32x32 (![0, 1, 2, 3] : Fin 4 → Fin S32x384x32x32.rank)
  slices_S32x384x34x34_S32x384x32x32_0_0_0_1 : S32x384x34x34.Slices ![0, 0, 0, 1] S32x384x32x32
  slices_S384x3x3_S384x1x1_0_0_1 : S384x3x3.Slices ![0, 0, 1] S384x1x1
  slices_S32x384x34x34_S32x384x32x32_0_0_0_2 : S32x384x34x34.Slices ![0, 0, 0, 2] S32x384x32x32
  slices_S384x3x3_S384x1x1_0_0_2 : S384x3x3.Slices ![0, 0, 2] S384x1x1
  slices_S32x384x34x34_S32x384x32x32_0_0_1_0 : S32x384x34x34.Slices ![0, 0, 1, 0] S32x384x32x32
  slices_S384x3x3_S384x1x1_0_1_0 : S384x3x3.Slices ![0, 1, 0] S384x1x1
  slices_S32x384x34x34_S32x384x32x32_0_0_1_1 : S32x384x34x34.Slices ![0, 0, 1, 1] S32x384x32x32
  slices_S384x3x3_S384x1x1_0_1_1 : S384x3x3.Slices ![0, 1, 1] S384x1x1
  slices_S32x384x34x34_S32x384x32x32_0_0_1_2 : S32x384x34x34.Slices ![0, 0, 1, 2] S32x384x32x32
  slices_S384x3x3_S384x1x1_0_1_2 : S384x3x3.Slices ![0, 1, 2] S384x1x1
  slices_S32x384x34x34_S32x384x32x32_0_0_2_0 : S32x384x34x34.Slices ![0, 0, 2, 0] S32x384x32x32
  slices_S384x3x3_S384x1x1_0_2_0 : S384x3x3.Slices ![0, 2, 0] S384x1x1
  slices_S32x384x34x34_S32x384x32x32_0_0_2_1 : S32x384x34x34.Slices ![0, 0, 2, 1] S32x384x32x32
  slices_S384x3x3_S384x1x1_0_2_1 : S384x3x3.Slices ![0, 2, 1] S384x1x1
  slices_S32x384x34x34_S32x384x32x32_0_0_2_2 : S32x384x34x34.Slices ![0, 0, 2, 2] S32x384x32x32
  slices_S384x3x3_S384x1x1_0_2_2 : S384x3x3.Slices ![0, 2, 2] S384x1x1

variable [Facts₀]

class Facts : Prop extends Facts₀ where

variable [Facts]
-- ==== Proof.Spec.lean ====
/-
  The depthwise "adder" convolution, 3 × 3, stride 1, zero padding 1, as one function of the two argument
  arrays, index by index, over the extended reals.

  For a batch entry `n` and a channel `c` write `f h w = x[n, c, h, w]` for the channel's 32 × 32 image and
  `g u v = wt[c, u, v]` for its 3 × 3 filter. The image is extended by a value `z` to a 34 × 34 frame (`padRead`: rows
  and columns 1 … 32 of the frame are the image, the border is `z`), and the result at `(i, j)` is
  `z − |P(i+0, j+0) − g 0 0| − |P(i+0, j+1) − g 0 1| − … − |P(i+2, j+2) − g 2 2|`, the nine taps subtracted one after
  the other, rows of the filter first: a fixed order, so no law of arithmetic is needed to compare two programs that
  both subtract in this order, and the statement holds at the infinities as it does at the reals. `z` is the
  extended real both programs' zero words denote; it is a parameter here and is never evaluated.
-/
import Idealize.ShloMosaic.PureOps.Ideal
import Idealize.ShloMosaic.Lib.ValueIdx

noncomputable section

namespace Cert.AdderConv

open Idealize.ShloMosaic Idealize.ShloMosaic.ValueIdx

/-- The 34 × 34 frame around a 32 × 32 image `f`: the image at rows and columns 1 … 32, `z` on the border (and
    anywhere else). -/
def padRead (z : EReal) (f : Fin 32 → Fin 32 → EReal) (h w : ℕ) : EReal :=
  if hh : (1 ≤ h ∧ h ≤ 32) ∧ (1 ≤ w ∧ w ≤ 32) then f ⟨h - 1, by omega⟩ ⟨w - 1, by omega⟩ else z

/-- Inside the frame's interior the frame is the image. -/
theorem padRead_inside (z : EReal) (f : Fin 32 → Fin 32 → EReal) (h w : ℕ)
    (hh : (1 ≤ h ∧ h ≤ 32) ∧ (1 ≤ w ∧ w ≤ 32)) :
    padRead z f h w = f ⟨h - 1, by omega⟩ ⟨w - 1, by omega⟩ := by
  unfold padRead; rw [dif_pos hh]

/-- Off the interior it is the padding value. -/
theorem padRead_outside (z : EReal) (f : Fin 32 → Fin 32 → EReal) (h w : ℕ)
    (hh : ¬((1 ≤ h ∧ h ≤ 32) ∧ (1 ≤ w ∧ w ≤ 32))) : padRead z f h w = z := by
  unfold padRead; rw [dif_neg hh]

/-- The frame depends on the image only through its values. -/
theorem padRead_congr (z : EReal) {f f' : Fin 32 → Fin 32 → EReal} (hf : ∀ a b, f a b = f' a b) (h w : ℕ) :
    padRead z f h w = padRead z f' h w := by
  have : f = f' := funext fun a => funext fun b => hf a b
  rw [this]

/-- The absolute difference of two extended reals, as both programs compute it: the larger of the difference and its
    negative. -/
def dist (a b : EReal) : EReal := max (a - b) (-(a - b))

/-- One output entry: from `z`, the nine absolute differences between the frame under the 3 × 3 filter placed at
    `(i, j)` and the filter, subtracted in row-major order of the filter. -/
def adder (z : EReal) (f : Fin 32 → Fin 32 → EReal) (g : Fin 3 → Fin 3 → EReal) (i j : Fin 32) : EReal :=
  z - dist (padRead z f (0 + i.val) (0 + j.val)) (g 0 0)
    - dist (padRead z f (0 + i.val) (1 + j.val)) (g 0 1)
    - dist (padRead z f (0 + i.val) (2 + j.val)) (g 0 2)
    - dist (padRead z f (1 + i.val) (0 + j.val)) (g 1 0)
    - dist (padRead z f (1 + i.val) (1 + j.val)) (g 1 1)
    - dist (padRead z f (1 + i.val) (2 + j.val)) (g 1 2)
    - dist (padRead z f (2 + i.val) (0 + j.val)) (g 2 0)
    - dist (padRead z f (2 + i.val) (1 + j.val)) (g 2 1)
    - dist (padRead z f (2 + i.val) (2 + j.val)) (g 2 2)

/-- It depends on the image and on the filter only through their values. -/
theorem adder_congr (z : EReal) {f f' : Fin 32 → Fin 32 → EReal} {g g' : Fin 3 → Fin 3 → EReal}
    (hf : ∀ a b, f a b = f' a b) (hg : ∀ u v, g u v = g' u v) (i j : Fin 32) :
    adder z f g i j = adder z f' g' i j := by
  have e1 : f = f' := funext fun a => funext fun b => hf a b
  have e2 : g = g' := funext fun a => funext fun b => hg a b
  rw [e1, e2]

/-- The input `[32, 384, 32, 32]` (batch, channel, row, column) and the filters `[384, 3, 3]`. -/
abbrev SX : Shape := ⟨4, ![32, 384, 32, 32]⟩
abbrev SW : Shape := ⟨3, ![384, 3, 3]⟩

/-- THE RESULT: entry `(n, c, i, j)` is channel `c` of batch entry `n` under channel `c`'s filter, at `(i, j)`. -/
def conv (z : EReal) (x : SX.Idx → EReal) (wt : SW.Idx → EReal) : SX.Idx → EReal := fun q =>
  adder z (fun h w => x (ix4 (q 0) (q 1) h w)) (fun u v => wt (ix3 (q 1) u v)) (q 2) (q 3)

/-- The result at an index given by its four coordinates. -/
theorem conv_apply (z : EReal) (x : SX.Idx → EReal) (wt : SW.Idx → EReal) (n : Fin 32) (c : Fin 384) (i j : Fin 32) :
    conv z x wt (ix4 n c i j) = adder z (fun h w => x (ix4 n c h w)) (fun u v => wt (ix3 c u v)) i j := rfl

end Cert.AdderConv

end
-- ==== Proof.Reference.lean ====
/-
  The reference computes the adder convolution of Spec.lean, index by index.

  Its padded input (a `pad` of the input by one row and one column of the converted integer zero on each side of the
  two image axes) read at `(n, c, h, w)` is the frame around the image of batch entry `n`, channel `c`, at `(h, w)`
  (`frame_read`); its nine slices of the padded input are that frame read at the nine filter positions (`tap_read`);
  its nine filter slices, each flattened and broadcast over the result along the channel axis, read `wt[c, u, v]`
  (`filter_read`); and its subtractions and absolute values are the extended reals', in the order of Spec.lean's `adder`.
-/
import proofs.«159380_j171798692025_2_alg».proof.Proof.Gen.ReferenceIdeal.Read
import proofs.«159380_j171798692025_2_alg».proof.Proof.Spec
import Idealize.ShloMosaic.Lib.KernelVsHost
import Idealize.ShloMosaic.Lib.IdealHost
import Idealize.ShloMosaic.Lib.ValueIdx
import Idealize.ShloMosaic.Lib.Pipeline.Value

set_option maxRecDepth 16384

noncomputable section

namespace Cert.ReferenceIdeal.AdderRef

open Cert.ReferenceIdeal Cert.ReferenceIdeal.Gen Cert.ReferenceIdeal.Read
open Idealize.ShloMosaic Idealize.ShloMosaic.ValueIdx Cert.AdderConv

/-- The extended real the zero word of both programs denotes (never evaluated: it is the same term on both sides). -/
abbrev zero : EReal := Ideal.ofBits .f32 0x00000000#32

/-- The padding value, the integer zero converted, is that number. -/
theorem pad_value (i : S_.Idx) : val_main_call0_v0 (F := Ideal) i = zero := by
  show ((((0#32 : BitVec 32).toInt : ℤ) : ℝ) : EReal) = Ideal.ofBits .f32 0x00000000#32
  rw [Ideal.ofBits_zero_f32]
  simp

/-- The padded input at `(n, c, h, w)`: the frame around image `(n, c)` at `(h, w)`. -/
theorem frame_read (x0 : S32x384x32x32.Idx → EReal) (n : Fin 32) (c : Fin 384) (h w : ℕ) (hh : h < 34) (hw : w < 34) :
    val_main_v0 (F := Ideal) x0 (ix4 n c ⟨h, hh⟩ ⟨w, hw⟩) = padRead zero (fun a b => x0 (ix4 n c a b)) h w := by
  unfold val_main_v0
  by_cases hin : (1 ≤ h ∧ h ≤ 32) ∧ (1 ≤ w ∧ w ≤ 32)
  · rw [padRead_inside _ _ _ _ hin]
    exact pad_apply_of_inside _ _ _ x0 _ _ _ (ix4 n c ⟨h, hh⟩ ⟨w, hw⟩)
      (ix4 n c ⟨h - 1, by omega⟩ ⟨w - 1, by omega⟩) (fun a => by
        match a with
        | ⟨0, _⟩ => show n.val = 0 + n.val * (0 + 1); omega
        | ⟨1, _⟩ => show c.val = 0 + c.val * (0 + 1); omega
        | ⟨2, _⟩ => show h = 1 + (h - 1) * (0 + 1); omega
        | ⟨3, _⟩ => show w = 1 + (w - 1) * (0 + 1); omega)
  · rw [padRead_outside _ _ _ _ hin]
    by_cases h2 : 1 ≤ h ∧ h ≤ 32
    · have h3 : ¬(1 ≤ w ∧ w ≤ 32) := fun h3 => hin ⟨h2, h3⟩
      rw [pad_apply_of_not_inside _ _ _ x0 _ _ _ (ix4 n c ⟨h, hh⟩ ⟨w, hw⟩) ⟨3, by decide⟩ (by
        show ¬(1 ≤ w ∧ (w - 1) % 1 = 0 ∧ (w - 1) / 1 < 32)
        omega)]
      exact pad_value _
    · rw [pad_apply_of_not_inside _ _ _ x0 _ _ _ (ix4 n c ⟨h, hh⟩ ⟨w, hw⟩) ⟨2, by decide⟩ (by
        show ¬(1 ≤ h ∧ (h - 1) % 1 = 0 ∧ (h - 1) / 1 < 32)
        omega)]
      exact pad_value _

/-- The slice of the padded input at filter position `(u, v)`, read at `(n, c, i, j)`: the frame at `(u + i, v + j)`. -/
theorem tap_read (x0 : S32x384x32x32.Idx → EReal) (u v : ℕ) (hu : u < 3) (hv : v < 3)
    (hs : S32x384x34x34.Slices ![0, 0, u, v] S32x384x32x32) (n : Fin 32) (c : Fin 384) (i j : Fin 32) :
    extractStridedSlice S32x384x32x32 ![0, 0, u, v] (val_main_v0 (F := Ideal) x0) hs (ix4 n c i j)
      = padRead zero (fun a b => x0 (ix4 n c a b)) (u + i.val) (v + j.val) := by
  rw [extractStridedSlice_apply ![0, 0, u, v] _ hs (ix4 n c i j)
    (ix4 n c ⟨u + i.val, by omega⟩ ⟨v + j.val, by omega⟩) (fun a => by
      match a with
      | ⟨0, _⟩ => show n.val = 0 + n.val; omega
      | ⟨1, _⟩ => show c.val = 0 + c.val; omega
      | ⟨2, _⟩ => rfl
      | ⟨3, _⟩ => rfl)]
  exact frame_read x0 n c _ _ _ _

/-- Entry `(u, v)` of every channel's filter, cut out of the `[384, 3, 3]` filters, flattened to `[384]` and broadcast
    along the channel axis of the result, read at `(n, c, i, j)`: `wt[c, u, v]`. -/
theorem filter_read {α : Type} (x1 : S384x3x3.Idx → α) (u v : ℕ) (hu : u < 3) (hv : v < 3)
    (hs : S384x3x3.Slices ![0, u, v] S384x1x1) (hc : S384x1x1.ShapeCasts S384)
    (hb1 : S384.BroadcastsInDim S1x384x1x1 ![1]) (hb2 : S1x384x1x1.BroadcastsInDim S32x384x32x32 ![0, 1, 2, 3])
    (n : Fin 32) (c : Fin 384) (i j : Fin 32) :
    broadcastInDim S32x384x32x32 ![0, 1, 2, 3] hb2
        (broadcastInDim S1x384x1x1 ![1] hb1 (shapeCast S384 (extractStridedSlice S384x1x1 ![0, u, v] x1 hs) hc)) (ix4 n c i j)
      = x1 (ix3 c ⟨u, hu⟩ ⟨v, hv⟩) := by
  rw [broadcastInDim_apply _ hb2 _ (ix4 n c i j) (ix4 (0 : Fin 1) c (0 : Fin 1) (0 : Fin 1)) (fun a => by
      match a with
      | ⟨0, _⟩ => rfl
      | ⟨1, _⟩ => show c.val = if (384 : Nat) = 1 then 0 else c.val; rw [if_neg (by decide)]
      | ⟨2, _⟩ => rfl
      | ⟨3, _⟩ => rfl)]
  rw [broadcastInDim_apply _ hb1 _ (ix4 (0 : Fin 1) c (0 : Fin 1) (0 : Fin 1)) (ix1 c) (fun a => by
      match a with
      | ⟨0, _⟩ => show c.val = if (384 : Nat) = 1 then 0 else c.val; rw [if_neg (by decide)])]
  rw [shapeCast_apply _ hc (ix1 c) (ix3 c (0 : Fin 1) (0 : Fin 1)) (by
      rw [Shape.rowMajor_val_three, Shape.rowMajor_val_one]
      show (c.val * 1 + 0) * 1 + 0 = c.val
      omega)]
  rw [extractStridedSlice_apply ![0, u, v] x1 hs (ix3 c (0 : Fin 1) (0 : Fin 1)) (ix3 c ⟨u, hu⟩ ⟨v, hv⟩) (fun a => by
      match a with
      | ⟨0, _⟩ => show c.val = 0 + c.val; omega
      | ⟨1, _⟩ => show u = u + 0; omega
      | ⟨2, _⟩ => show v = v + 0; omega)]

/-- THE REFERENCE'S RESULT is the adder convolution of its two arguments. -/
theorem result_eq (x0 : S32x384x32x32.Idx → EReal) (x1 : S384x3x3.Idx → EReal) :
    val_main_v73 (F := Ideal) x0 x1 = conv zero x0 x1 := by
  funext q
  obtain ⟨n, c, i, j, rfl⟩ : ∃ (n : Fin 32) (c : Fin 384) (i j : Fin 32), q = ix4 n c i j := ⟨q 0, q 1, q 2, q 3, eq_ix4 q⟩
  rw [conv_apply]
  have a00 : val_main_v2 (F := Ideal) x0 (ix4 n c i j) = _ := tap_read x0 0 0 (by decide) (by decide) _ n c i j
  have a01 : val_main_v10 (F := Ideal) x0 (ix4 n c i j) = _ := tap_read x0 0 1 (by decide) (by decide) _ n c i j
  have a02 : val_main_v18 (F := Ideal) x0 (ix4 n c i j) = _ := tap_read x0 0 2 (by decide) (by decide) _ n c i j
  have a10 : val_main_v26 (F := Ideal) x0 (ix4 n c i j) = _ := tap_read x0 1 0 (by decide) (by decide) _ n c i j
  have a11 : val_main_v34 (F := Ideal) x0 (ix4 n c i j) = _ := tap_read x0 1 1 (by decide) (by decide) _ n c i j
  have a12 : val_main_v42 (F := Ideal) x0 (ix4 n c i j) = _ := tap_read x0 1 2 (by decide) (by decide) _ n c i j
  have a20 : val_main_v50 (F := Ideal) x0 (ix4 n c i j) = _ := tap_read x0 2 0 (by decide) (by decide) _ n c i j
  have a21 : val_main_v58 (F := Ideal) x0 (ix4 n c i j) = _ := tap_read x0 2 1 (by decide) (by decide) _ n c i j
  have a22 : val_main_v66 (F := Ideal) x0 (ix4 n c i j) = _ := tap_read x0 2 2 (by decide) (by decide) _ n c i j
  have g00 : val_main_v6 (F := Ideal) x1 (ix4 n c i j) = _ := filter_read x1 0 0 (by decide) (by decide) _ _ _ _ n c i j
  have g01 : val_main_v14 (F := Ideal) x1 (ix4 n c i j) = _ := filter_read x1 0 1 (by decide) (by decide) _ _ _ _ n c i j
  have g02 : val_main_v22 (F := Ideal) x1 (ix4 n c i j) = _ := filter_read x1 0 2 (by decide) (by decide) _ _ _ _ n c i j
  have g10 : val_main_v30 (F := Ideal) x1 (ix4 n c i j) = _ := filter_read x1 1 0 (by decide) (by decide) _ _ _ _ n c i j
  have g11 : val_main_v38 (F := Ideal) x1 (ix4 n c i j) = _ := filter_read x1 1 1 (by decide) (by decide) _ _ _ _ n c i j
  have g12 : val_main_v46 (F := Ideal) x1 (ix4 n c i j) = _ := filter_read x1 1 2 (by decide) (by decide) _ _ _ _ n c i j
  have g20 : val_main_v54 (F := Ideal) x1 (ix4 n c i j) = _ := filter_read x1 2 0 (by decide) (by decide) _ _ _ _ n c i j
  have g21 : val_main_v62 (F := Ideal) x1 (ix4 n c i j) = _ := filter_read x1 2 1 (by decide) (by decide) _ _ _ _ n c i j
  have g22 : val_main_v70 (F := Ideal) x1 (ix4 n c i j) = _ := filter_read x1 2 2 (by decide) (by decide) _ _ _ _ n c i j
  have z1 : val_main_v1 (F := Ideal) (ix4 n c i j) = zero := by
    rw [val_main_v1_apply, val_main_cst_apply]
    rfl
  simp only [val_main_v73_apply, val_main_v72_apply, val_main_v71_apply, val_main_v65_apply, val_main_v64_apply,
    val_main_v63_apply, val_main_v57_apply, val_main_v56_apply, val_main_v55_apply, val_main_v49_apply,
    val_main_v48_apply, val_main_v47_apply, val_main_v41_apply, val_main_v40_apply, val_main_v39_apply,
    val_main_v33_apply, val_main_v32_apply, val_main_v31_apply, val_main_v25_apply, val_main_v24_apply,
    val_main_v23_apply, val_main_v17_apply, val_main_v16_apply, val_main_v15_apply, val_main_v9_apply,
    val_main_v8_apply, val_main_v7_apply]
  rw [a00, a01, a02, a10, a11, a12, a20, a21, a22, g00, g01, g02, g10, g11, g12, g20, g21, g22, z1]
  rfl

end Cert.ReferenceIdeal.AdderRef

end
-- ==== Proof.Slab.lean ====
/-
  The padded slab the kernel body builds in its scratch buffer, read at an index.

  The body fills the `[4, 34, 34, 384]` slab with one value and then stores the point's `[4, 32, 32, 384]` input block into
  its interior, rows and columns 1 … 32. A later load of the `[4, 32, 32, 384]` window whose corner is at row `u`, column
  `v` of the slab (`u, v ≤ 2`) therefore reads, at `(b, i, j, ch)`, the input block at `(b, u + i − 1, v + j − 1, ch)` when
  that row and column lie in 1 … 32, and the fill value on the border: the frame of Spec.lean, one per batch entry and
  channel (`slab_read`, `slab_read_frame`). Also here: the three payloads of the body that only change a vector's
  static type, and a filter row broadcast over the block, read at an index.
-/
import proofs.«159380_j171798692025_2_alg».proof.Proof.Gen.KernelIdeal.Skeleton
import proofs.«159380_j171798692025_2_alg».proof.Proof.Spec
import Idealize.ShloMosaic.Lib.Pipeline.Value
import Idealize.ShloMosaic.Lib.ValueIdx

set_option maxRecDepth 16384

noncomputable section

namespace Cert.KernelIdeal.AdderValue

open Cert.KernelIdeal Cert.KernelIdeal.Gen Idealize.ShloMosaic Idealize.ShloMosaic.ValueIdx Cert.AdderConv

theorem hz4 : (![0, 0, 0, 0] : Fin 4 → Nat) = fun _ => 0 := funext fun a => by fin_cases a <;> rfl
theorem hz3 : (![0, 0, 0] : Fin 3 → Nat) = fun _ => 0 := funext fun a => by fin_cases a <;> rfl

section AnyValues
variable {Val : EltTy → Type} [∀ e, Nonempty (Val e)] {e : EltTy}

/-- The slab after the fill `zf` and the store of the block `x` into its interior, read where the window with corner
    `(u, v)` puts `(b, i, j, ch)`: the block one row up and one column left when that is inside it, the fill otherwise. -/
theorem slab_read (x : S4x32x32x384.Idx → Val e) (zf : S4x34x34x384.Idx → Val e)
    (inbI : ∀ a, (![0, 1, 1, 0] : Fin 4 → Nat) a + S4x32x32x384.size a ≤ S4x34x34x384.size a)
    (inbW : ∀ a, (![0, 0, 0, 0] : Fin 4 → Nat) a + S4x34x34x384.size a ≤ S4x34x34x384.size a)
    (u v : ℕ) (inbL : ∀ a, (![0, u, v, 0] : Fin 4 → Nat) a + S4x32x32x384.size a ≤ S4x34x34x384.size a)
    (b : Fin 4) (i j : Fin 32) (ch : Fin 384) :
    View.canon [(⟨Rect.unit (s := S4x34x34x384) ![0, 1, 1, 0] S4x32x32x384.size inbI, x⟩ : View.Piece Val S4x34x34x384 e),
        ⟨Rect.unit (s := S4x34x34x384) ![0, 0, 0, 0] S4x34x34x384.size inbW, zf⟩]
      ((Rect.unit (s := S4x34x34x384) ![0, u, v, 0] S4x32x32x384.size inbL).toLoadRect.idx (ix4 b i j ch))
    = if hh : (1 ≤ u + i.val ∧ u + i.val ≤ 32) ∧ (1 ≤ v + j.val ∧ v + j.val ≤ 32)
      then x (ix4 b ⟨u + i.val - 1, by omega⟩ ⟨v + j.val - 1, by omega⟩ ch)
      else zf ((Rect.unit (s := S4x34x34x384) ![0, u, v, 0] S4x32x32x384.size inbL).toLoadRect.idx (ix4 b i j ch)) := by
  by_cases hh : (1 ≤ u + i.val ∧ u + i.val ≤ 32) ∧ (1 ≤ v + j.val ∧ v + j.val ≤ 32)
  · rw [dif_pos hh]
    have e1 : (Rect.unit (s := S4x34x34x384) ![0, u, v, 0] S4x32x32x384.size inbL).toLoadRect.idx (ix4 b i j ch)
        = (Rect.unit (s := S4x34x34x384) ![0, 1, 1, 0] S4x32x32x384.size inbI).emb
            (ix4 b ⟨u + i.val - 1, by omega⟩ ⟨v + j.val - 1, by omega⟩ ch) := by
      funext a
      apply Fin.ext
      match a with
      | ⟨0, _⟩ => rfl
      | ⟨1, _⟩ => show u + 1 * i.val = 1 + 1 * (u + i.val - 1); omega
      | ⟨2, _⟩ => show v + 1 * j.val = 1 + 1 * (v + j.val - 1); omega
      | ⟨3, _⟩ => rfl
    rw [e1, View.canon_cons_emb]
  · rw [dif_neg hh]
    have hn : (Rect.unit (s := S4x34x34x384) ![0, u, v, 0] S4x32x32x384.size inbL).toLoadRect.idx (ix4 b i j ch)
        ∉ (Rect.unit (s := S4x34x34x384) ![0, 1, 1, 0] S4x32x32x384.size inbI).set := by
      rw [Rect.mem_set_unit]
      intro hall
      obtain ⟨h1a, h1b⟩ : 1 ≤ u + 1 * i.val ∧ u + 1 * i.val < 1 + 32 := hall 1
      obtain ⟨h2a, h2b⟩ : 1 ≤ v + 1 * j.val ∧ v + 1 * j.val < 1 + 32 := hall 2
      clear hall inbL inbI inbW
      have g1 : 1 ≤ u + i.val := by omega
      have g2 : u + i.val ≤ 32 := by omega
      have g3 : 1 ≤ v + j.val := by omega
      have g4 : v + j.val ≤ 32 := by omega
      exact hh ⟨⟨g1, g2⟩, ⟨g3, g4⟩⟩
    refine (View.canon_cons_of_not_mem
      (⟨Rect.unit (s := S4x34x34x384) ![0, 1, 1, 0] S4x32x32x384.size inbI, x⟩ : View.Piece Val S4x34x34x384 e)
      [⟨Rect.unit (s := S4x34x34x384) ![0, 0, 0, 0] S4x34x34x384.size inbW, zf⟩] hn).trans ?_
    exact congrFun (View.canon_unit_zero hz4 inbW zf) _

end AnyValues

/-- The same over the extended reals, with a constant fill `z`, as the frame around the image of batch entry `b`, channel `ch`. -/
theorem slab_read_frame (z : EReal) (x : S4x32x32x384.Idx → EReal) (zf : S4x34x34x384.Idx → EReal) (hzf : ∀ y, zf y = z)
    (inbI : ∀ a, (![0, 1, 1, 0] : Fin 4 → Nat) a + S4x32x32x384.size a ≤ S4x34x34x384.size a)
    (inbW : ∀ a, (![0, 0, 0, 0] : Fin 4 → Nat) a + S4x34x34x384.size a ≤ S4x34x34x384.size a)
    (u v : ℕ) (inbL : ∀ a, (![0, u, v, 0] : Fin 4 → Nat) a + S4x32x32x384.size a ≤ S4x34x34x384.size a)
    (b : Fin 4) (i j : Fin 32) (ch : Fin 384) :
    View.canon (Val := Elt Ideal) [(⟨Rect.unit (s := S4x34x34x384) ![0, 1, 1, 0] S4x32x32x384.size inbI, x⟩ : View.Piece (Elt Ideal) S4x34x34x384 .f32),
        ⟨Rect.unit (s := S4x34x34x384) ![0, 0, 0, 0] S4x34x34x384.size inbW, zf⟩]
      ((Rect.unit (s := S4x34x34x384) ![0, u, v, 0] S4x32x32x384.size inbL).toLoadRect.idx (ix4 b i j ch))
    = padRead z (fun h w => x (ix4 b h w ch)) (u + i.val) (v + j.val) := by
  rw [slab_read]
  by_cases hh : (1 ≤ u + i.val ∧ u + i.val ≤ 32) ∧ (1 ≤ v + j.val ∧ v + j.val ≤ 32)
  · rw [dif_pos hh, padRead_inside z _ _ _ hh]
  · rw [dif_neg hh, padRead_outside z _ _ _ hh, hzf]

section Payloads
variable {F : FTy → Type} [FloatOps F]

/-- The fill: one value everywhere. -/
theorem pay2_apply (y : S4x34x34x384.Idx) : k0_pay2 (F := F) y = Scalar.ofBits .f32 0x00000000#32 := by
  show shapeCast S4x34x34x384 (broadcast S4x34x34x384 (Scalar.ofBits (F := F) .f32 0x00000000#32)) shapeCasts_S4x34x34x384_S4x34x34x384 y = _
  rw [shapeCast_self]
  rfl

/-- The input block goes to the slab unchanged (two casts to its own type). -/
theorem pay3_eq (v4 : Vec F S4x32x32x384 .f32) : k0_pay3 v4 = v4 := by
  unfold k0_pay3
  dsimp only
  rw [shapeCast_self, shapeCast_self]

/-- The filter block is used unchanged (a cast to its own type). -/
theorem pay4_eq (v9 : Vec F S3x3x384 .f32) : k0_pay4 v9 = v9 := by
  unfold k0_pay4
  dsimp only
  rw [shapeCast_self]

end Payloads

/-- Row `(u, v)` of the `[3, 3, 384]` filter block, cut out, flattened to `[384]`, given three unit axes and broadcast
    over the `[4, 32, 32, 384]` block, read at `(b, i, j, ch)`: the filter block at `(u, v, ch)`. -/
theorem filter_row_apply {α : Type} (w3 : S3x3x384.Idx → α) (u v : ℕ) (hu : u < 3) (hv : v < 3)
    (hs : S3x3x384.Slices ![u, v, 0] S1x1x384) (hc1 : S1x1x384.ShapeCasts S384) (hc2 : S384.ShapeCasts S1x1x1x384)
    (hb : S1x1x1x384.Broadcasts S4x32x32x384) (b : Fin 4) (i j : Fin 32) (ch : Fin 384) :
    broadcastTo S4x32x32x384 (shapeCast S1x1x1x384 (shapeCast S384 (extractStridedSlice S1x1x384 ![u, v, 0] w3 hs) hc1) hc2) hb
      (ix4 b i j ch) = w3 (ix3 ⟨u, hu⟩ ⟨v, hv⟩ ch) := by
  rw [broadcastTo_apply _ hb (ix4 b i j ch) (ix4 (0 : Fin 1) (0 : Fin 1) (0 : Fin 1) ch) (fun a => by
      match a with
      | ⟨0, _⟩ => rfl
      | ⟨1, _⟩ => rfl
      | ⟨2, _⟩ => rfl
      | ⟨3, _⟩ => rfl)]
  rw [shapeCast_apply _ hc2 (ix4 (0 : Fin 1) (0 : Fin 1) (0 : Fin 1) ch) (ix1 ch) (by
      rw [Shape.rowMajor_val_four, Shape.rowMajor_val_one]
      show ch.val = ((0 * 1 + 0) * 1 + 0) * 384 + ch.val
      omega)]
  rw [shapeCast_apply _ hc1 (ix1 ch) (ix3 (0 : Fin 1) (0 : Fin 1) ch) (by
      rw [Shape.rowMajor_val_one, Shape.rowMajor_val_three]
      show (0 * 1 + 0) * 384 + ch.val = ch.val
      omega)]
  rw [extractStridedSlice_apply ![u, v, 0] w3 hs (ix3 (0 : Fin 1) (0 : Fin 1) ch) (ix3 ⟨u, hu⟩ ⟨v, hv⟩ ch) (fun a => by
      match a with
      | ⟨0, _⟩ => show u = u + 0; omega
      | ⟨1, _⟩ => show v = v + 0; omega
      | ⟨2, _⟩ => show ch.val = 0 + ch.val; omega)]

end Cert.KernelIdeal.AdderValue

end
-- ==== Proof.Body.lean ====
/-
  What the kernel body leaves in the output's staging buffer, as a value, for any float instance.

  The body fills its scratch slab, stores the input block `x0` into the slab's interior, and then computes the output
  block from nine `[4, 32, 32, 384]` windows of the slab (corners `(u, v)`, `u, v ≤ 2`) and the filter block `x1`, and
  stores it whole. The run found the output's one store with its loads named as reads of what the two slab stores
  left; here those reads are spelt as the windows of ONE slab (`slab`, `win`) and the store's payload as `body x0 x1`:
  the three arithmetic payloads of the body composed (`out_eq`).
-/
import proofs.«159380_j171798692025_2_alg».proof.Proof.Gen.KernelIdeal.Frame
import proofs.«159380_j171798692025_2_alg».proof.Proof.Slab
import Idealize.ShloMosaic.Lib.Pipeline.Value
import Idealize.ShloMosaic.Lib.Tactic

set_option maxRecDepth 16384

noncomputable section

namespace Cert.KernelIdeal.AdderValue

open Cert.KernelIdeal Cert.KernelIdeal.Gen Idealize.ShloMosaic Idealize.ShloMosaic.TcCoe Idealize.SL.Sem
open Idealize.ShloMosaic.ValueIdx

variable {F : FTy → Type} [FloatOps F]

/-- The slab after the fill and the store of the input block `x0` into its interior. -/
def slab (x0 : Vec F S4x32x32x384 .f32) : S4x34x34x384.Idx → Elt F .f32 :=
  View.canon [(⟨Rect.unit (s := S4x34x34x384) ![0, 1, 1, 0] S4x32x32x384.size inb_S4x34x34x384_S4x32x32x384_0_1_1_0, x0⟩ :
      View.Piece (Elt F) S4x34x34x384 .f32),
    ⟨Rect.unit (s := S4x34x34x384) ![0, 0, 0, 0] S4x34x34x384.size inb_S4x34x34x384_S4x34x34x384_0_0_0_0, k0_pay2⟩]

/-- Its `[4, 32, 32, 384]` window with corner at row `u`, column `v`. -/
def win (x0 : Vec F S4x32x32x384 .f32) (u v : ℕ)
    (inb : ∀ a, (![0, u, v, 0] : Fin 4 → Nat) a + S4x32x32x384.size a ≤ S4x34x34x384.size a) : Vec F S4x32x32x384 .f32 :=
  fun y => slab x0 ((Rect.unit (s := S4x34x34x384) ![0, u, v, 0] S4x32x32x384.size inb).toLoadRect.idx y)

/-- The output block as the body computes it from the input block `x0` and the filter block `x1`: taps `(0, 0)`,
    `(0, 1)` in the first payload, `(0, 2)` … `(2, 0)` in the second, `(2, 1)`, `(2, 2)` in the third. -/
def body (x0 : Vec F S4x32x32x384 .f32) (x1 : Vec F S3x3x384 .f32) : Vec F S4x32x32x384 .f32 :=
  k0_pay1 x1
    (k0_pay6 x1
      (k0_pay5 x1 (win x0 0 0 inb_S4x34x34x384_S4x32x32x384_0_0_0_0) (win x0 0 1 inb_S4x34x34x384_S4x32x32x384_0_0_1_0))
      (win x0 0 2 inb_S4x34x34x384_S4x32x32x384_0_0_2_0) (win x0 1 0 inb_S4x34x34x384_S4x32x32x384_0_1_0_0)
      (win x0 1 1 inb_S4x34x34x384_S4x32x32x384_0_1_1_0) (win x0 1 2 inb_S4x34x34x384_S4x32x32x384_0_1_2_0)
      (win x0 2 0 inb_S4x34x34x384_S4x32x32x384_0_2_0_0))
    (win x0 2 1 inb_S4x34x34x384_S4x32x32x384_0_2_1_0) (win x0 2 2 inb_S4x34x34x384_S4x32x32x384_0_2_2_0)

/-- What the run leaves in the output's staging buffer is `body` of the two input blocks, on any staging memrefs. -/
theorem out_eq (c : Dev nD) (i : grid0.Coords) (a1 : Memref sig .tc .vmem S4x32x32x384 .f32) (h1 : a1.IsWhole)
    (a2 : Memref sig .tc .vmem S3x3x384 .f32) (h2 : a2.IsWhole) (a3 : Memref sig .tc .vmem S4x32x32x384 .f32) (h3 : a3.IsWhole)
    (a4 : Memref sig .tc .vmem S4x34x34x384 .f32) (h4 : a4.IsWhole)
    (x0 : Vec F S4x32x32x384 .f32) (x1 : Vec F S3x3x384 .f32) :
    out0_A_2 c i a1 h1 a2 h2 a3 h3 a4 h4 x0 x1 = body x0 x1 := by
  unfold out0_A_2
  rw [View.read_writes_eq_canon _ _ _ (cover0_A_2 c i a1 h1 a2 h2 a3 h3 a4 h4 x0 x1)]
  unfold kernelRun0_A
  dsimp only
  sl_unfold_words
  rw [View.canon_unit_zero hz4]
  simp only [View.readAt_eq_ld, h1.read_unread, h2.read_unread, View.ld_unit_zero (S := S4x32x32x384) hz4,
    View.ld_unit_zero (S := S3x3x384) hz3, pay3_eq, pay4_eq, View.readCov_eq_canon']
  rfl

end Cert.KernelIdeal.AdderValue

end
-- ==== Proof.BodyIdeal.lean ====
/-
  The kernel body's output block over the extended reals, entry by entry.

  At `(b, i, j, ch)` of the `[4, 32, 32, 384]` output block the body's value is Spec.lean's `adder` of the image
  `(h, w) ↦ x0[b, h, w, ch]` of the input block and the filter `(u, v) ↦ x1[u, v, ch]` of the filter block: each of the nine
  slab windows read there is the frame around that image at `(u + i, v + j)` (Slab.lean), each of the nine broadcast
  filter rows is `x1[u, v, ch]`, and the body's subtractions and absolute values, taken entry by entry, are the
  extended reals' in `adder`'s order.
-/
import proofs.«159380_j171798692025_2_alg».proof.Proof.Body

set_option maxRecDepth 16384

noncomputable section

namespace Cert.KernelIdeal.AdderValue

open Cert.KernelIdeal Cert.KernelIdeal.Gen Idealize.ShloMosaic Idealize.ShloMosaic.TcCoe Idealize.SL.Sem
open Idealize.ShloMosaic.ValueIdx Cert.AdderConv

/-- The extended real the kernel's zero word denotes (never evaluated). -/
abbrev zero : EReal := Ideal.ofBits .f32 0x00000000#32

/-- An absolute value taken entry by entry is the larger of the entry and its negative. -/
theorem absf_apply {s : Shape} {φ : FTy} (a : FVec Ideal s φ) (y : s.Idx) : absf a y = max (a y) (-(a y)) := rfl

/-- A window of the slab at `(b, i, j, ch)`: the frame around image `(b, ch)` of the input block at `(u + i, v + j)`. -/
theorem win_apply (x0 : Vec Ideal S4x32x32x384 .f32) (u v : ℕ)
    (inb : ∀ a, (![0, u, v, 0] : Fin 4 → Nat) a + S4x32x32x384.size a ≤ S4x34x34x384.size a)
    (b : Fin 4) (i j : Fin 32) (ch : Fin 384) :
    win x0 u v inb (ix4 b i j ch) = padRead zero (fun h w => x0 (ix4 b h w ch)) (u + i.val) (v + j.val) := by
  unfold win slab
  exact slab_read_frame zero x0 (k0_pay2 (F := Ideal)) (fun y => pay2_apply y) _ _ u v inb b i j ch

/-- THE BODY'S VALUE at an entry of the output block. -/
theorem body_apply (x0 : Vec Ideal S4x32x32x384 .f32) (x1 : Vec Ideal S3x3x384 .f32) (b : Fin 4) (i j : Fin 32) (ch : Fin 384) :
    body x0 x1 (ix4 b i j ch) = adder zero (fun h w => x0 (ix4 b h w ch)) (fun u v => x1 (ix3 u v ch)) i j := by
  have w00 := win_apply x0 0 0 inb_S4x34x34x384_S4x32x32x384_0_0_0_0 b i j ch
  have w01 := win_apply x0 0 1 inb_S4x34x34x384_S4x32x32x384_0_0_1_0 b i j ch
  have w02 := win_apply x0 0 2 inb_S4x34x34x384_S4x32x32x384_0_0_2_0 b i j ch
  have w10 := win_apply x0 1 0 inb_S4x34x34x384_S4x32x32x384_0_1_0_0 b i j ch
  have w11 := win_apply x0 1 1 inb_S4x34x34x384_S4x32x32x384_0_1_1_0 b i j ch
  have w12 := win_apply x0 1 2 inb_S4x34x34x384_S4x32x32x384_0_1_2_0 b i j ch
  have w20 := win_apply x0 2 0 inb_S4x34x34x384_S4x32x32x384_0_2_0_0 b i j ch
  have w21 := win_apply x0 2 1 inb_S4x34x34x384_S4x32x32x384_0_2_1_0 b i j ch
  have w22 := win_apply x0 2 2 inb_S4x34x34x384_S4x32x32x384_0_2_2_0 b i j ch
  have r00 := filter_row_apply x1 0 0 (by decide) (by decide) slices_S3x3x384_o0_0_0_S1x1x384 shapeCasts_S1x1x384_S384 shapeCasts_S384_S1x1x1x384 broadcasts_S1x1x1x384_S4x32x32x384 b i j ch
  have r01 := filter_row_apply x1 0 1 (by decide) (by decide) slices_S3x3x384_o0_1_0_S1x1x384 shapeCasts_S1x1x384_S384 shapeCasts_S384_S1x1x1x384 broadcasts_S1x1x1x384_S4x32x32x384 b i j ch
  have r02 := filter_row_apply x1 0 2 (by decide) (by decide) slices_S3x3x384_o0_2_0_S1x1x384 shapeCasts_S1x1x384_S384 shapeCasts_S384_S1x1x1x384 broadcasts_S1x1x1x384_S4x32x32x384 b i j ch
  have r10 := filter_row_apply x1 1 0 (by decide) (by decide) slices_S3x3x384_o1_0_0_S1x1x384 shapeCasts_S1x1x384_S384 shapeCasts_S384_S1x1x1x384 broadcasts_S1x1x1x384_S4x32x32x384 b i j ch
  have r11 := filter_row_apply x1 1 1 (by decide) (by decide) slices_S3x3x384_o1_1_0_S1x1x384 shapeCasts_S1x1x384_S384 shapeCasts_S384_S1x1x1x384 broadcasts_S1x1x1x384_S4x32x32x384 b i j ch
  have r12 := filter_row_apply x1 1 2 (by decide) (by decide) slices_S3x3x384_o1_2_0_S1x1x384 shapeCasts_S1x1x384_S384 shapeCasts_S384_S1x1x1x384 broadcasts_S1x1x1x384_S4x32x32x384 b i j ch
  have r20 := filter_row_apply x1 2 0 (by decide) (by decide) slices_S3x3x384_o2_0_0_S1x1x384 shapeCasts_S1x1x384_S384 shapeCasts_S384_S1x1x1x384 broadcasts_S1x1x1x384_S4x32x32x384 b i j ch
  have r21 := filter_row_apply x1 2 1 (by decide) (by decide) slices_S3x3x384_o2_1_0_S1x1x384 shapeCasts_S1x1x384_S384 shapeCasts_S384_S1x1x1x384 broadcasts_S1x1x1x384_S4x32x32x384 b i j ch
  have r22 := filter_row_apply x1 2 2 (by decide) (by decide) slices_S3x3x384_o2_2_0_S1x1x384 shapeCasts_S1x1x384_S384 shapeCasts_S384_S1x1x1x384 broadcasts_S1x1x1x384_S4x32x32x384 b i j ch
  unfold body k0_pay1 k0_pay6 k0_pay5
  simp only [pay4_eq, subf_apply, absf_apply, broadcast_apply]
  rw [w00, w01, w02, w10, w11, w12, w20, w21, w22, r00, r01, r02, r10, r11, r12, r20, r21, r22]
  rfl

end Cert.KernelIdeal.AdderValue

end
-- ==== Proof.Blocks.lean ====
/-
  From the blocks the grid points write back to the kernel's whole output array.

  The region runs over the input re-laid channel-last (`[32, 32, 32, 384]`: batch, row, column, channel) and the filters
  re-laid `[3, 3, 384]`; point `t` of its 8 points takes batch entries `4t … 4t + 3` of the input and all the filters, and
  writes back batch entries `4t … 4t + 3` of the output. By BodyIdeal.lean the block a point writes is, entry by entry,
  the adder convolution of the input images and filters it was given — which are the arguments' own images and filters
  (`iblk0_apply`, `iblk1_apply`: the two transposes only rename coordinates) —, so it is that block of ONE function of the
  arguments, the convolution laid channel-last (`convT`, `flushed_eq`); the 8 blocks tile the array (`cover`), so after the
  run the output array is that function (`final`).
-/
import proofs.«159380_j171798692025_2_alg».proof.Proof.BodyIdeal
import Idealize.ShloMosaic.Lib.StableHlo.Run
import Idealize.ShloMosaic.Lib.Pipeline.Value

set_option maxRecDepth 16384

noncomputable section

namespace Cert.KernelIdeal.AdderValue

open Cert.KernelIdeal Cert.KernelIdeal.Gen Idealize.ShloMosaic Idealize.ShloMosaic.TcCoe Idealize.SL.Sem
open Idealize.ShloMosaic.ValueIdx Cert.AdderConv
open Idealize.ShloMosaic.Pipeline (Dat)

variable (m : (ℓ : Loc nD τ sig) → Buf (Elt Ideal) ℓ) (ρ : Dev nD → PrngReg)

/-- The convolution laid channel-last, as the kernel's output array holds it: entry `(n, i, j, ch)` is entry
    `(n, ch, i, j)` of the convolution. -/
def convT (X : SX.Idx → EReal) (W : SW.Idx → EReal) : S32x32x32x384.Idx → EReal :=
  fun p => conv zero X W (ix4 (p 0) (p 3) (p 1) (p 2))

theorem convT_apply (X : SX.Idx → EReal) (W : SW.Idx → EReal) (n : Fin 32) (i j : Fin 32) (ch : Fin 384) :
    convT X W (ix4 n i j ch) = conv zero X W (ix4 n ch i j) := rfl

/-- The region finds the input re-laid channel-last in its first array … -/
theorem V_v0 (c : Dev nD) : (V m c main_v0 : S32x32x32x384.Idx → EReal)
    = transpose S32x32x32x384 [0, 2, 3, 1] (m ((c : Thread nD τ).loc main_arg0)) transposes_S32x384x32x32_S32x32x32x384_0_2_3_1 := by
  show StableHlo.after hostOps0 (fun b => m (c, b)) (Proc.devRef .tc main_v0) = _
  after_results

/-- … and the filters re-laid `[3, 3, 384]` in its second. -/
theorem V_v1 (c : Dev nD) : (V m c main_v1 : S3x3x384.Idx → EReal)
    = transpose S3x3x384 [1, 2, 0] (m ((c : Thread nD τ).loc main_arg1)) transposes_S384x3x3_S3x3x384_1_2_0 := by
  show StableHlo.after hostOps0 (fun b => m (c, b)) (Proc.devRef .tc main_v1) = _
  after_results

/-- The printed index maps over the 8 points: the input's and the output's blocks move along the batch axis with the
    point, the filters' block does not move. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The input block at point `t`: batch entries `4t … 4t + 3` of the argument, image by image. -/
theorem iblk0_apply (c : Dev nD) (t : Fin cfg0.N) (b : Fin 4) (h w : Fin 32) (ch : Fin 384) (n : Fin 32)
    (hn : n.val = 4 * t.val + b.val) :
    (iblk m c 0 t : Vec Ideal S4x32x32x384 .f32) (ix4 b h w ch)
      = (m ((c : Thread nD τ).loc main_arg0) : SX.Idx → EReal) (ix4 n ch h w) := by
  obtain ⟨e0, e1, e2, e3, -⟩ := idx_facts t
  unfold iblk
  rw [View.read_apply]
  show V m c main_v0 _ = _
  rw [V_v0]
  refine transpose_apply _ _ _ _ (ix4 n ch h w) (fun a => ?_)
  match a with
  | ⟨0, _⟩ => show n.val = win0_0.index t (0 : Fin 4) * 4 + 1 * b.val; rw [e0, hn]; omega
  | ⟨1, _⟩ => show h.val = win0_0.index t (1 : Fin 4) * 32 + 1 * h.val; rw [e1]; omega
  | ⟨2, _⟩ => show w.val = win0_0.index t (2 : Fin 4) * 32 + 1 * w.val; rw [e2]; omega
  | ⟨3, _⟩ => show ch.val = win0_0.index t (3 : Fin 4) * 384 + 1 * ch.val; rw [e3]; omega

/-- The filter block at every point: all the filters. -/
theorem iblk1_apply (c : Dev nD) (t : Fin cfg0.N) (u v : Fin 3) (ch : Fin 384) :
    (iblk m c 1 t : Vec Ideal S3x3x384 .f32) (ix3 u v ch)
      = (m ((c : Thread nD τ).loc main_arg1) : SW.Idx → EReal) (ix3 ch u v) := by
  obtain ⟨-, -, -, -, e0, e1, e2, -⟩ := idx_facts t
  unfold iblk
  rw [View.read_apply]
  show V m c main_v1 _ = _
  rw [V_v1]
  refine transpose_apply _ _ _ _ (ix3 ch u v) (fun a => ?_)
  match a with
  | ⟨0, _⟩ => show u.val = win0_1.index t (0 : Fin 3) * 3 + 1 * u.val; rw [e0]; omega
  | ⟨1, _⟩ => show v.val = win0_1.index t (1 : Fin 3) * 3 + 1 * v.val; rw [e1]; omega
  | ⟨2, _⟩ => show ch.val = win0_1.index t (2 : Fin 3) * 384 + 1 * ch.val; rw [e2]; omega

/-- A block computed by the body from blocks that hold batch entries `4T … 4T + 3` of `X` and the filters `W` re-laid
    is, at `y`, the channel-last convolution of `X` and `W` at the array index `p` that `y` has in batch entries `4T …`. -/
theorem block_value (X : SX.Idx → EReal) (W : SW.Idx → EReal) (x0 : Vec Ideal S4x32x32x384 .f32) (x1 : Vec Ideal S3x3x384 .f32)
    (T : ℕ)
    (hx0 : ∀ (b : Fin 4) (h w : Fin 32) (ch : Fin 384) (n : Fin 32), n.val = 4 * T + b.val → x0 (ix4 b h w ch) = X (ix4 n ch h w))
    (hx1 : ∀ (u v : Fin 3) (ch : Fin 384), x1 (ix3 u v ch) = W (ix3 ch u v))
    (y : S4x32x32x384.Idx) (p : S32x32x32x384.Idx)
    (hp0 : (p 0).val = 4 * T + (y 0).val) (hp1 : (p 1).val = (y 1).val) (hp2 : (p 2).val = (y 2).val) (hp3 : (p 3).val = (y 3).val) :
    body x0 x1 y = convT X W p := by
  obtain ⟨b, i, j, ch, rfl⟩ : ∃ (b : Fin 4) (i j : Fin 32) (ch : Fin 384), y = ix4 b i j ch := ⟨y 0, y 1, y 2, y 3, eq_ix4 y⟩
  obtain ⟨n, i', j', ch', rfl⟩ : ∃ (n : Fin 32) (i' j' : Fin 32) (ch' : Fin 384), p = ix4 n i' j' ch' := ⟨p 0, p 1, p 2, p 3, eq_ix4 p⟩
  have hn : n.val = 4 * T + b.val := hp0
  obtain rfl : i' = i := Fin.ext hp1
  obtain rfl : j' = j := Fin.ext hp2
  obtain rfl : ch' = ch := Fin.ext hp3
  rw [body_apply, convT_apply, conv_apply]
  exact adder_congr zero (fun h w => hx0 b h w ch' n hn) (fun u v => hx1 u v ch') i' j'

/-- WHAT POINT `t` WRITES BACK is block `t` of the channel-last convolution of the arguments. -/
theorem flushed_eq (c : Dev nD) (t : Fin cfg0.N) :
    (dats m 0 c).flushed 2 t = ((cfg0.win 2).blk t).view.read (Elt Ideal)
      (convT (m ((c : Thread nD τ).loc main_arg0)) (m ((c : Thread nD τ).loc main_arg1))) := by
  show (cfg0.win 2).cut (grid0.coords t) ((dats m 0 c).after 2 t) = _
  rw [after0_2]
  unfold outsAt0
  rw [out_eq]
  obtain ⟨-, -, -, -, -, -, -, e0, e1, e2, e3⟩ := idx_facts t
  funext y
  rw [View.read_apply]
  refine block_value (m ((c : Thread nD τ).loc main_arg0)) (m ((c : Thread nD τ).loc main_arg1)) (iblk m c 0 t) (iblk m c 1 t) t.val
    (fun b h w ch n hn => iblk0_apply m c t b h w ch n hn) (fun u v ch => iblk1_apply m c t u v ch) y _ ?_ ?_ ?_ ?_
  · show win0_2.index t (0 : Fin 4) * 4 + 1 * (y 0).val = 4 * t.val + (y 0).val; rw [e0]; omega
  · show win0_2.index t (1 : Fin 4) * 32 + 1 * (y 1).val = (y 1).val; rw [e1]; omega
  · show win0_2.index t (2 : Fin 4) * 32 + 1 * (y 2).val = (y 2).val; rw [e2]; omega
  · show win0_2.index t (3 : Fin 4) * 384 + 1 * (y 3).val = (y 3).val; rw [e3]; omega

/-- An index of the output array is in point `t`'s block iff each coordinate is in the block's range on its axis. -/
theorem mem_blk (t : Fin cfg0.N) (p : S32x32x32x384.Idx) :
    p ∈ ((cfg0.win 2).blk t).view.set ↔ ∀ a : Fin 4, win0_2.index t a * S4x32x32x384.size a ≤ (p a).val
      ∧ (p a).val < win0_2.index t a * S4x32x32x384.size a + S4x32x32x384.size a := by
  show p ∈ ((View.whole main_v2).slice (win0_2.rect t)).set ↔ _
  rw [View.set_slice_whole, Rect.mem_set_unit]
  exact Iff.rfl

/-- Every index of the output array is in the block of the point its batch entry belongs to. -/
theorem cover (p : S32x32x32x384.Idx) : ∃ t : Fin cfg0.N, (cfg0.win 2).flush t = true ∧ p ∈ ((cfg0.win 2).blk t).view.set := by
  have h0 : (p 0).val < 32 := (p 0).isLt
  have h1 : (p 1).val < 32 := (p 1).isLt
  have h2 : (p 2).val < 32 := (p 2).isLt
  have h3 : (p 3).val < 384 := (p 3).isLt
  have hN : cfg0.N = 8 := N_0
  refine ⟨⟨(p 0).val / 4, by rw [hN]; omega⟩, flush0_2 _, ?_⟩
  obtain ⟨-, -, -, -, -, -, -, e0, e1, e2, e3⟩ := idx_facts ⟨(p 0).val / 4, by rw [hN]; omega⟩
  rw [mem_blk]
  intro a
  match a with
  | ⟨0, _⟩ =>
    show win0_2.index _ (0 : Fin 4) * 4 ≤ (p 0).val ∧ (p 0).val < win0_2.index _ (0 : Fin 4) * 4 + 4
    rw [e0]; show (p 0).val / 4 * 4 ≤ (p 0).val ∧ (p 0).val < (p 0).val / 4 * 4 + 4; omega
  | ⟨1, _⟩ =>
    show win0_2.index _ (1 : Fin 4) * 32 ≤ (p 1).val ∧ (p 1).val < win0_2.index _ (1 : Fin 4) * 32 + 32
    rw [e1]; omega
  | ⟨2, _⟩ =>
    show win0_2.index _ (2 : Fin 4) * 32 ≤ (p 2).val ∧ (p 2).val < win0_2.index _ (2 : Fin 4) * 32 + 32
    rw [e2]; omega
  | ⟨3, _⟩ =>
    show win0_2.index _ (3 : Fin 4) * 384 ≤ (p 3).val ∧ (p 3).val < win0_2.index _ (3 : Fin 4) * 384 + 384
    rw [e3]; omega

/-- THE OUTPUT ARRAY after the run: the channel-last convolution of the arguments. -/
theorem final (c : Dev nD) : (dats m 0 c).arrAt 2 cfg0.N
    = convT (m ((c : Thread nD τ).loc main_arg0)) (m ((c : Thread nD τ).loc main_arg1)) :=
  (dats m 0 c).arrAt_eq_of_cover 2 _ (fun t _ => flushed_eq m c t) cover

end Cert.KernelIdeal.AdderValue

end
-- ==== Proof.KernelRun.lean ====
/-
  The kernel program's run, with its result named.

  After the region the program transposes the channel-last output array back to `[32, 384, 32, 32]`: entry `(n, c, i, j)` of
  the result is entry `(n, i, j, c)` of the output array, which Blocks.lean showed to be entry `(n, c, i, j)` of the
  adder convolution of the two arguments. So every weakly fair execution ends with the result at that convolution and
  the arguments unchanged (`run`).
-/
import proofs.«159380_j171798692025_2_alg».proof.Proof.Blocks

set_option maxRecDepth 16384

noncomputable section

namespace Cert.KernelIdeal.AdderValue

open Cert.KernelIdeal Cert.KernelIdeal.Gen Idealize.ShloMosaic Idealize.ShloMosaic.TcCoe Idealize.SL.Sem
open Idealize.ShloMosaic.ValueIdx Cert.AdderConv
open Idealize.ShloMosaic.Pipeline (Dat)

variable (m : (ℓ : Loc nD τ sig) → Buf (Elt Ideal) ℓ) (ρ : Dev nD → PrngReg)

/-- The channel-last convolution transposed back is the convolution. -/
theorem transpose_convT (X : SX.Idx → EReal) (W : SW.Idx → EReal) :
    transpose S32x384x32x32 [0, 3, 1, 2] (convT X W) transposes_S32x32x32x384_S32x384x32x32_0_3_1_2 = conv zero X W := by
  funext q
  obtain ⟨n, c, i, j, rfl⟩ : ∃ (n : Fin 32) (c : Fin 384) (i j : Fin 32), q = ix4 n c i j := ⟨q 0, q 1, q 2, q 3, eq_ix4 q⟩
  rw [transpose_apply _ _ _ (ix4 n c i j) (ix4 n i j c) (fun a => by
    match a with
    | ⟨0, _⟩ => rfl
    | ⟨1, _⟩ => rfl
    | ⟨2, _⟩ => rfl
    | ⟨3, _⟩ => rfl)]
  exact convT_apply X W n i j c

/-- THE RESULT of the program: what the host line after the region leaves in the result buffer. -/
theorem tail_eq (c : Dev nD) :
    (Pipeline.afterTail₀ cfgs (dats m) 0 (V0 m) [hostOps1] c main_v3 : SX.Idx → EReal)
      = conv zero (m ((c : Thread nD τ).loc main_arg0)) (m ((c : Thread nD τ).loc main_arg1)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2)
      = convT (m ((c : Thread nD τ).loc main_arg0)) (m ((c : Thread nD τ).loc main_arg1)) from
    (Pipeline.withArrays_arr spec0 launch0.win.arr_inj c _ _ 2).trans (final m c)]
  exact transpose_convT _ _

/-- Every weakly fair execution of the kernel program terminates with the result at the adder convolution of the
    arguments and the arguments unchanged. -/
theorem run : θ_run defs (onTc (τ := τ) (main (F := Ideal))) ⟨m, fun _ => 0, ρ⟩ fun r => ∀ c : Dev nD,
      r.2.mem ((c.tc : Thread nD τ).loc main_v3) = conv zero (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.AdderValue

end
-- ==== Proof.lean ====
/-
  The depthwise "adder" convolution (3 × 3, stride 1, zero padding 1, one filter per channel): a Pallas kernel against
  its jnp reference, equal as extended reals.

  Both programs compute, at `(n, c, i, j)`,
  `0 − |P(i+0, j+0) − w[c,0,0]| − |P(i+0, j+1) − w[c,0,1]| − … − |P(i+2, j+2) − w[c,2,2]|`, where `P` is the image
  `x[n, c]` framed by one row and one column of zeros, and they subtract the nine taps in the same order; so the two
  results are one term of extended-real arithmetic and no law of arithmetic (hence no finiteness of the inputs) is
  needed. What differs is the layout. The reference pads the input once and slices the padded array nine times; the
  kernel re-lays the input channel-last, and at each of 8 grid points builds the framed block of four batch entries
  in a scratch slab (fill with zero, then store the block into the interior) and reads nine shifted windows of it, then
  re-lays the result back. Spec.lean states the function; Reference.lean shows the reference computes it; Slab.lean,
  Body.lean, BodyIdeal.lean, Blocks.lean and KernelRun.lean show the kernel program does.

  The three frame claims are the generated frames (the reference's is its generated run with the result dropped); the
  idealization rewrote nothing, so `preserves` has no conjunct.
-/
import proofs.«159380_j171798692025_2_alg».proof.Defs
import proofs.«159380_j171798692025_2_alg».proof.Proof.Gen.Kernel
import proofs.«159380_j171798692025_2_alg».proof.Proof.Gen.Kernel.Skeleton
import proofs.«159380_j171798692025_2_alg».proof.Proof.Gen.Kernel.Launch
import proofs.«159380_j171798692025_2_alg».proof.Proof.Gen.Kernel.Points
import proofs.«159380_j171798692025_2_alg».proof.Proof.Gen.Kernel.Frame
import proofs.«159380_j171798692025_2_alg».proof.Proof.Gen.KernelIdeal
import proofs.«159380_j171798692025_2_alg».proof.Proof.Gen.KernelIdeal.Skeleton
import proofs.«159380_j171798692025_2_alg».proof.Proof.Gen.KernelIdeal.Launch
import proofs.«159380_j171798692025_2_alg».proof.Proof.Gen.KernelIdeal.Points
import proofs.«159380_j171798692025_2_alg».proof.Proof.Gen.KernelIdeal.Frame
import proofs.«159380_j171798692025_2_alg».proof.Proof.Gen.ReferenceIdeal
import proofs.«159380_j171798692025_2_alg».proof.Proof.Gen.Pre_finite_inputs
import proofs.«159380_j171798692025_2_alg».proof.Proof.Gen.ReferenceIdeal.Run
import proofs.«159380_j171798692025_2_alg».proof.Proof.Gen.ReferenceIdeal.Read
import proofs.«159380_j171798692025_2_alg».proof.Proof.Reference
import proofs.«159380_j171798692025_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with their result at the adder convolution of arguments that agree. -/
theorem algebraic : Cert.algebraic_KernelIdeal_ReferenceIdeal := by
  intro m ρ m' ρ' _ hagree
  refine ⟨fun c => Cert.AdderConv.conv Cert.KernelIdeal.AdderValue.zero
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.AdderValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v73_eq, Cert.ReferenceIdeal.AdderRef.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
